-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x28x28 : Shape := ⟨3, ![256, 28, 28]⟩
abbrev S784x1000 : Shape := ⟨2, ![784, 1000]⟩
abbrev S10x1000 : Shape := ⟨2, ![10, 1000]⟩
abbrev S_ : Shape := ⟨0, ![]⟩

class Facts : Prop where
  bcast_S_S256x28x28 : S_.BroadcastsInDim S256x28x28 (![] : Fin 0 → Fin S256x28x28.rank)
  reducesTo_S256x28x28_S_d0_1_2 : S256x28x28.ReducesTo [0, 1, 2] S_
  h_S_ : 0 < S_.numel
  bcast_S_S784x1000 : S_.BroadcastsInDim S784x1000 (![] : Fin 0 → Fin S784x1000.rank)
  reducesTo_S784x1000_S_d0_1 : S784x1000.ReducesTo [0, 1] S_
  bcast_S_S10x1000 : S_.BroadcastsInDim S10x1000 (![] : Fin 0 → Fin S10x1000.rank)
  reducesTo_S10x1000_S_d0_1 : S10x1000.ReducesTo [0, 1] S_

variable [Facts]

def fn_part1 {F : FTy → Type} [FloatOps F] (main_v13 : IVec S_ 1) (main_v16 : IVec S10x1000 1) : IVec S_ 1 :=
  let main_c_5 : IVec S_ 1 := constantI S_ 1 1#1
  let main_v17 : IVec S_ 1 := (fun x v => Host.reduce IntOp.andi x v reducesTo_S10x1000_S_d0_1 h_S_) main_v16 main_c_5
  let main_v18 : IVec S_ 1 := andi main_v13 main_v17
  main_v18

def fn {F : FTy → Type} [FloatOps F] (main_arg0 : FVec F S256x28x28 .f32) (main_arg1 : FVec F S784x1000 .f32) (main_arg2 : FVec F S10x1000 .f32) (main_arg3 : FVec F S10x1000 .f32) : IVec S_ 1 :=
  let main_v0 : FVec F S256x28x28 .f32 := Host.absf main_arg0
  let main_cst : FVec F S_ .f32 := constant S_ .f32 0x7F800000#32
  let main_v1 : FVec F S256x28x28 .f32 := broadcastInDim S256x28x28 ![] bcast_S_S256x28x28 main_cst
  let main_v2 : IVec S256x28x28 1 := cmpf .olt main_v0 main_v1
  let main_c : IVec S_ 1 := constantI S_ 1 1#1
  let main_v3 : IVec S_ 1 := (fun x v => Host.reduce IntOp.andi x v reducesTo_S256x28x28_S_d0_1_2 h_S_) main_v2 main_c
  let main_v4 : FVec F S784x1000 .f32 := Host.absf main_arg1
  let main_cst_0 : FVec F S_ .f32 := constant S_ .f32 0x7F800000#32
  let main_v5 : FVec F S784x1000 .f32 := broadcastInDim S784x1000 ![] bcast_S_S784x1000 main_cst_0
  let main_v6 : IVec S784x1000 1 := cmpf .olt main_v4 main_v5
  let main_c_1 : IVec S_ 1 := constantI S_ 1 1#1
  let main_v7 : IVec S_ 1 := (fun x v => Host.reduce IntOp.andi x v reducesTo_S784x1000_S_d0_1 h_S_) main_v6 main_c_1
  let main_v8 : IVec S_ 1 := andi main_v3 main_v7
  let main_v9 : FVec F S10x1000 .f32 := Host.absf main_arg2
  let main_cst_2 : FVec F S_ .f32 := constant S_ .f32 0x7F800000#32
  let main_v10 : FVec F S10x1000 .f32 := broadcastInDim S10x1000 ![] bcast_S_S10x1000 main_cst_2
  let main_v11 : IVec S10x1000 1 := cmpf .olt main_v9 main_v10
  let main_c_3 : IVec S_ 1 := constantI S_ 1 1#1
  let main_v12 : IVec S_ 1 := (fun x v => Host.reduce IntOp.andi x v reducesTo_S10x1000_S_d0_1 h_S_) main_v11 main_c_3
  let main_v13 : IVec S_ 1 := andi main_v8 main_v12
  let main_v14 : FVec F S10x1000 .f32 := Host.absf main_arg3
  let main_cst_4 : FVec F S_ .f32 := constant S_ .f32 0x7F800000#32
  let main_v15 : FVec F S10x1000 .f32 := broadcastInDim S10x1000 ![] bcast_S_S10x1000 main_cst_4
  let main_v16 : IVec S10x1000 1 := cmpf .olt main_v14 main_v15
  fn_part1 (F := F) main_v13 main_v16
-- ==== Kernel.lean ====
abbrev S256x28x28 : Shape := ⟨3, ![256, 28, 28]⟩
abbrev S784x1000 : Shape := ⟨2, ![784, 1000]⟩
abbrev S10x1000 : Shape := ⟨2, ![10, 1000]⟩
abbrev S256x784 : Shape := ⟨2, ![256, 784]⟩
abbrev S256x10 : Shape := ⟨2, ![256, 10]⟩
abbrev S128x784 : Shape := ⟨2, ![128, 784]⟩
abbrev S128x10 : Shape := ⟨2, ![128, 10]⟩
abbrev S128x1000 : Shape := ⟨2, ![128, 1000]⟩
abbrev S1x1000 : Shape := ⟨2, ![1, 1000]⟩
abbrev S1000 : Shape := ⟨1, ![1000]⟩

abbrev nBuf : Space → Nat
  | .hbm => 6
  | .vmem => 7
  | .smem => 0
  | _ => 0

abbrev bufTy : (tb : Table) → Fin (tcTables nBuf tb) → BufTy
  | .hbm, ⟨0, _⟩ => ⟨S256x28x28, .f32⟩
  | .hbm, ⟨1, _⟩ => ⟨S784x1000, .f32⟩
  | .hbm, ⟨2, _⟩ => ⟨S10x1000, .f32⟩
  | .hbm, ⟨3, _⟩ => ⟨S10x1000, .f32⟩
  | .hbm, ⟨4, _⟩ => ⟨S256x784, .f32⟩
  | .hbm, ⟨5, _⟩ => ⟨S256x10, .f32⟩
  | .local _ .vmem, ⟨0, _⟩ => ⟨S128x784, .f32⟩
  | .local _ .vmem, ⟨1, _⟩ => ⟨S128x784, .f32⟩
  | .local _ .vmem, ⟨2, _⟩ => ⟨S784x1000, .f32⟩
  | .local _ .vmem, ⟨3, _⟩ => ⟨S10x1000, .f32⟩
  | .local _ .vmem, ⟨4, _⟩ => ⟨S10x1000, .f32⟩
  | .local _ .vmem, ⟨5, _⟩ => ⟨S128x10, .f32⟩
  | .local _ .vmem, ⟨6, _⟩ => ⟨S128x10, .f32⟩
  | _, _ => ⟨S256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x28x28_S256x784 : S256x28x28.ShapeCasts S256x784
  inb_S128x784_S128x784_0_0 : ∀ a, (![0, 0] : Fin 2 → Nat) a + S128x784.size a ≤ S128x784.size a
  h_S128x784 : 0 < S128x784.numel
  shapeCasts_S128x784_S128x784 : S128x784.ShapeCasts S128x784
  inb_S784x1000_S784x1000_0_0 : ∀ a, (![0, 0] : Fin 2 → Nat) a + S784x1000.size a ≤ S784x1000.size a
  h_S784x1000 : 0 < S784x1000.numel
  bitsLt_bf16_f32 : FTy.bits .bf16 < FTy.bits .f32
  natLt_1_32 : 1 < 32
  inb_S10x1000_S1x1000_0_0 : ∀ a, (![0, 0] : Fin 2 → Nat) a + S1x1000.size a ≤ S10x1000.size a
  h_S1x1000 : 0 < S1x1000.numel
  shapeCasts_S1x1000_S1000 : S1x1000.ShapeCasts S1000
  shapeCasts_S1000_S1x1000 : S1000.ShapeCasts S1x1000
  broadcasts_S1x1000_S128x1000 : S1x1000.Broadcasts S128x1000
  inb_S10x1000_S1x1000_1_0 : ∀ a, (![1, 0] : Fin 2 → Nat) a + S1x1000.size a ≤ S10x1000.size a
  inb_S10x1000_S1x1000_2_0 : ∀ a, (![2, 0] : Fin 2 → Nat) a + S1x1000.size a ≤ S10x1000.size a
  inb_S10x1000_S1x1000_3_0 : ∀ a, (![3, 0] : Fin 2 → Nat) a + S1x1000.size a ≤ S10x1000.size a
  inb_S10x1000_S1x1000_4_0 : ∀ a, (![4, 0] : Fin 2 → Nat) a + S1x1000.size a ≤ S10x1000.size a
  inb_S10x1000_S1x1000_5_0 : ∀ a, (![5, 0] : Fin 2 → Nat) a + S1x1000.size a ≤ S10x1000.size a
  inb_S10x1000_S1x1000_6_0 : ∀ a, (![6, 0] : Fin 2 → Nat) a + S1x1000.size a ≤ S10x1000.size a
  inb_S10x1000_S1x1000_7_0 : ∀ a, (![7, 0] : Fin 2 → Nat) a + S1x1000.size a ≤ S10x1000.size a
  inb_S10x1000_S1x1000_8_0 : ∀ a, (![8, 0] : Fin 2 → Nat) a + S1x1000.size a ≤ S10x1000.size a
  inb_S10x1000_S1x1000_9_0 : ∀ a, (![9, 0] : Fin 2 → Nat) a + S1x1000.size a ≤ S10x1000.size a
  inb_S10x1000_S10x1000_0_0 : ∀ a, (![0, 0] : Fin 2 → Nat) a + S10x1000.size a ≤ S10x1000.size a
  h_S10x1000 : 0 < S10x1000.numel
  inb_S128x10_S128x10_0_0 : ∀ a, (![0, 0] : Fin 2 → Nat) a + S128x10.size a ≤ S128x10.size a
  h_S128x10 : 0 < S128x10.numel
  dot_S128x784_S784x1000_S128x1000_1_0_0_1_n_n_wf : DotDims.WF S128x784 S784x1000 S128x1000 [1] [0] [0] [1] [] []
  dot_S128x1000_S10x1000_S128x10_1_1_0_0_n_n_wf : DotDims.WF S128x1000 S10x1000 S128x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x784.size a ≤ S256x784.size a
  hwx0_0 : ∀ i : grid0.Coords, EltTy.bits .f32 = 32 ∨ (Rect.block (s := S256x784) S128x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1000.size a ≤ S784x1000.size a
  hwx0_1 : ∀ i : grid0.Coords, EltTy.bits .f32 = 32 ∨ (Rect.block (s := S784x1000) S784x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1000.size a ≤ S10x1000.size a
  hwx0_2 : ∀ i : grid0.Coords, EltTy.bits .f32 = 32 ∨ (Rect.block (s := S10x1000) S10x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1000.size a ≤ S10x1000.size a
  hwx0_3 : ∀ i : grid0.Coords, EltTy.bits .f32 = 32 ∨ (Rect.block (s := S10x1000) S10x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x10.size a ≤ S256x10.size a
  hwx0_4 : ∀ i : grid0.Coords, EltTy.bits .f32 = 32 ∨ (Rect.block (s := S256x10) S128x10.size (cc0_transform_4 i) (hinb0_4 i)).WholeWords (EltTy.packing .f32)

variable [Facts₀]

def dot_S128x784_S784x1000_S128x1000_1_0_0_1_n_n : DotDims S128x784 S784x1000 S128x1000 where
  lhsContracting := [1]
  rhsContracting := [0]
  lhsNonContracting := [0]
  rhsNonContracting := [1]
  lhsBatch := []
  rhsBatch := []
  wf := dot_S128x784_S784x1000_S128x1000_1_0_0_1_n_n_wf
def dot_S128x1000_S10x1000_S128x10_1_1_0_0_n_n : DotDims S128x1000 S10x1000 S128x10 where
  lhsContracting := [1]
  rhsContracting := [1]
  lhsNonContracting := [0]
  rhsNonContracting := [0]
  lhsBatch := []
  rhsBatch := []
  wf := dot_S128x1000_S10x1000_S128x10_1_1_0_0_n_n_wf

abbrev win0_0 : Pipeline.Window sig grid0 :=
  Pipeline.Window.ofSpec (Memref.whole main_v0) S128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x28x28 : Shape := ⟨3, ![256, 28, 28]⟩
abbrev S784x1000 : Shape := ⟨2, ![784, 1000]⟩
abbrev S10x1000 : Shape := ⟨2, ![10, 1000]⟩
abbrev S256x784 : Shape := ⟨2, ![256, 784]⟩
abbrev S_ : Shape := ⟨0, ![]⟩
abbrev S256x784x1 : Shape := ⟨3, ![256, 784, 1]⟩
abbrev S256x784x1000 : Shape := ⟨3, ![256, 784, 1000]⟩
abbrev S1x784x1000 : Shape := ⟨3, ![1, 784, 1000]⟩
abbrev S256x1000 : Shape := ⟨2, ![256, 1000]⟩
abbrev S1000x10 : Shape := ⟨2, ![1000, 10]⟩
abbrev S256x10 : Shape := ⟨2, ![256, 10]⟩

abbrev nBuf : Space → Nat
  | .hbm => 43
  | .vmem => 0
  | .smem => 0
  | _ => 0

abbrev bufTy : (tb : Table) → Fin (tcTables nBuf tb) → BufTy
  | .hbm, ⟨0, _⟩ => ⟨S256x28x28, .f32⟩
  | .hbm, ⟨1, _⟩ => ⟨S784x1000, .f32⟩
  | .hbm, ⟨2, _⟩ => ⟨S10x1000, .f32⟩
  | .hbm, ⟨3, _⟩ => ⟨S10x1000, .f32⟩
  | .hbm, ⟨4, _⟩ => ⟨S256x784, .f32⟩
  | .hbm, ⟨5, _⟩ => ⟨S_, .f32⟩
  | .hbm, ⟨6, _⟩ => ⟨S256x784, .f32⟩
  | .hbm, ⟨7, _⟩ => ⟨S256x784, .f32⟩
  | .hbm, ⟨8, _⟩ => ⟨S256x784, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S256x784, .f32⟩
  | .hbm, ⟨13, _⟩ => ⟨S256x784, .f32⟩
  | .hbm, ⟨14, _⟩ => ⟨S_, .f32⟩
  | .hbm, ⟨15, _⟩ => ⟨S256x784, .f32⟩
  | .hbm, ⟨16, _⟩ => ⟨S256x784, .f32⟩
  | .hbm, ⟨17, _⟩ => ⟨S256x784, .i32⟩
  | .hbm, ⟨18, _⟩ => ⟨S_, .i32⟩
  | .hbm, ⟨19, _⟩ => ⟨S256x784, .i32⟩
  | .hbm, ⟨20, _⟩ => ⟨S256x784, .i1⟩
  | .hbm, ⟨21, _⟩ => ⟨S_, .i32⟩
  | .hbm, ⟨22, _⟩ => ⟨S256x784, .i32⟩
  | .hbm, ⟨23, _⟩ => ⟨S256x784, .i32⟩
  | .hbm, ⟨24, _⟩ => ⟨S256x784, .i32⟩
  | .hbm, ⟨25, _⟩ => ⟨S256x784x1, .i32⟩
  | .hbm, ⟨26, _⟩ => ⟨S256x784x1000, .f32⟩
  | .hbm, ⟨27, _⟩ => ⟨S1x784x1000, .f32⟩
  | .hbm, ⟨28, _⟩ => ⟨S256x784x1000, .f32⟩
  | .hbm, ⟨29, _⟩ => ⟨S256x784x1000, .f32⟩
  | .hbm, ⟨30, _⟩ => ⟨S_, .f32⟩
  | .hbm, ⟨31, _⟩ => ⟨S256x1000, .f32⟩
  | .hbm, ⟨32, _⟩ => ⟨S_, .f32⟩
  | .hbm, ⟨33, _⟩ => ⟨S256x1000, .f32⟩
  | .hbm, ⟨34, _⟩ => ⟨S256x1000, .i1⟩
  | .hbm, ⟨35, _⟩ => ⟨S_, .f32⟩
  | .hbm, ⟨36, _⟩ => ⟨S_, .f32⟩
  | .hbm, ⟨37, _⟩ => ⟨S256x1000, .f32⟩
  | .hbm, ⟨38, _⟩ => ⟨S256x1000, .f32⟩
  | .hbm, ⟨39, _⟩ => ⟨S256x1000, .f32⟩
  | .hbm, ⟨40, _⟩ => ⟨S256x1000, .f32⟩
  | .hbm, ⟨41, _⟩ => ⟨S1000x10, .f32⟩
  | .hbm, ⟨42, _⟩ => ⟨S256x10, .f32⟩
  | _, _ => ⟨S256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  shapeCasts_S256x28x28_S256x784 : S256x28x28.ShapeCasts S256x784
  bcast_S_S256x784 : S_.BroadcastsInDim S256x784 (![] : Fin 0 → Fin S256x784.rank)
  bcast_S256x784_S256x784x1_0_1 : S256x784.BroadcastsInDim S256x784x1 (![0, 1] : Fin 2 → Fin S256x784x1.rank)
  bcast_S784x1000_S1x784x1000_1_2 : S784x1000.BroadcastsInDim S1x784x1000 (![1, 2] : Fin 2 → Fin S1x784x1000.rank)
  bcast_S1x784x1000_S256x784x1000_0_1_2 : S1x784x1000.BroadcastsInDim S256x784x1000 (![0, 1, 2] : Fin 3 → Fin S256x784x1000.rank)
  reducesTo_S256x784x1000_S256x1000_d1 : S256x784x1000.ReducesTo [1] S256x1000
  h_S_ : 0 < S_.numel
  bcast_S_S256x1000 : S_.BroadcastsInDim S256x1000 (![] : Fin 0 → Fin S256x1000.rank)
  transposes_S10x1000_S1000x10_1_0 : S10x1000.Transposes [1, 0] S1000x10
  gather_S10x1000_S256x784x1_S256x784x1000_2_0_n_n_0_2_11000_wf : GatherDims.WF S10x1000 S256x784x1 S256x784x1000 [2] [0] [] [0] [] 2 ![1, 1000]
  dot_S256x1000_S1000x10_S256x10_1_0_0_1_n_n_wf : DotDims.WF S256x1000 S1000x10 S256x10 [1] [0] [0] [1] [] []

variable [Facts₀]

def gather_S10x1000_S256x784x1_S256x784x1000_2_0_n_n_0_2_11000 : GatherDims S10x1000 S256x784x1 S256x784x1000 where
  offsetDims := [2]
  collapsedSliceDims := [0]
  operandBatchingDims := []
  startIndicesBatchingDims := []
  startIndexMap := [0]
  indexVectorDim := 2
  sliceSizes := ![1, 1000]
  wf := gather_S10x1000_S256x784x1_S256x784x1000_2_0_n_n_0_2_11000_wf
def dot_S256x1000_S1000x10_S256x10_1_0_0_1_n_n : DotDims S256x1000 S1000x10 S256x10 where
  lhsContracting := [1]
  rhsContracting := [0]
  lhsNonContracting := [0]
  rhsNonContracting := [1]
  lhsBatch := []
  rhsBatch := []
  wf := dot_S256x1000_S1000x10_S256x10_1_0_0_1_n_n_wf

class Facts : Prop extends Facts₀ where

variable [Facts]
-- ==== Proof.LibOneHot.lean ====
/-
  One-hot masks in place of a table lookup.

  A program that does not look a table row up by a computed index can still compute `∑_p P p · V (a p)`: for each
  row `l` of the table, sum the `P p` over the `p` whose index `a p` is `l` — the product of `P` with the 0/1 mask
  `[a p = l]` — and scale by `V l`; the sum over all rows `l` is the looked-up sum (`onehot_sum`), because at
  every `p` exactly one mask is `1`. The identity distributes `V l` over a sum and exchanges two sums: laws of the
  real numbers that fail at infinities. `coe_sum` carries a finite sum of reals into the extended reals, so that
  the identity can be used on extended reals that are known to be real.

  `cmpi_eq_toInt`: the mask as a program writes it — an integer equality test, widened to 32 bits, converted to a
  float — is `1` where the two words are equal and `0` elsewhere.
-/
import Idealize.ShloMosaic.PureOps.Ideal

noncomputable section

namespace Cert.LibOneHot

open Idealize.ShloMosaic

/-- Row by row or position by position: `∑_l (∑_p [a p = l] · P p) · V l = ∑_p P p · V (a p)`. Distribute `V l`
    over the inner sum, exchange the sums, and at each `p` only the term `l = a p` survives. -/
theorem onehot_sum {ι κ : Type} [Fintype ι] [Fintype κ] [DecidableEq κ] (a : ι → κ) (P : ι → ℝ) (V : κ → ℝ) :
    ∑ l : κ, (∑ p, (if a p = l then (1:ℝ) else 0) * P p) * V l = ∑ p, P p * V (a p) := by
  simp_rw [Finset.sum_mul]
  rw [Finset.sum_comm]
  refine Finset.sum_congr rfl fun p _ => ?_
  simp [ite_mul, Finset.sum_ite_eq]

/-- A finite sum of reals, read as an extended real, is the sum of the terms read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A 0/1 indicator of reals, read as an extended real, is the 0/1 indicator of extended reals. -/
theorem coe_indicator (c : Prop) [Decidable c] : (((if c then (1:ℝ) else 0) : ℝ) : EReal) = if c then 1 else 0 := by
  split_ifs <;> simp

/-- An equality test of two words, widened to 32 bits and converted to a real, is `1` or `0`. -/
theorem cmpi_eq_toInt {w : Nat} (a l : BitVec w) :
    ((((IntOp.cmpi .eq a l).setWidth 32).toInt : ℝ) : EReal) = if a = l then 1 else 0 := by
  by_cases h : a = l
  · subst h
    have e : IntOp.cmpi .eq a a = 1#1 := by simp [IntOp.cmpi]
    have e2 : ((1#1 : BitVec 1).setWidth 32).toInt = 1 := by decide
    rw [e, e2, if_pos rfl]; norm_num
  · have e : IntOp.cmpi .eq a l = 0#1 := by
      show BitVec.ofBool (a == l) = 0#1
      rw [beq_eq_false_iff_ne.mpr h]; rfl
    have e2 : ((0#1 : BitVec 1).setWidth 32).toInt = 0 := by decide
    rw [e, e2, if_neg h]; norm_num

end Cert.LibOneHot

end
-- ==== Proof.LevelBundle.lean ====
/-
  The mathematics of a level-quantized bundle, with no program in sight.

  A pixel value `x` is quantized to one of ten LEVELS: `x · 9` rounded to the nearest integer (ties to even),
  clamped into `[0, 9]` and converted to an integer word. Whatever extended real `x` is, the clamped value is a
  real in `[0, 9]`, so the word is one of `0, …, 9` (`level_lt`), and `lv x : Fin 10` names it as a row of a
  ten-row table.

  For one image row and one column `d` of the tables, the BUNDLE is
      ∑ₖ P[k, d] · V[lv x[r, k], d]                                  (`bundle`)
  — each of the 784 positions `k` binds its position entry `P[k, d]` with the table row chosen by the level of
  the pixel at `k`. The same number can be arranged level by level: for each level `l` sum the position entries
  of the pixels at that level (a product of the 0/1 MASK of level `l` with `P`), scale by `V[l, d]`, and add
  the ten results                                                      (`bundleK`).
  The two arrangements agree because exactly one of the ten masks is `1` at every pixel, by distributing
  `V[l, d]` over the inner sum and exchanging the two sums (`onehot_sum` of `LibOneHot`). Distributivity holds for real
  numbers and FAILS at infinities, so the agreement on extended reals (`bundleK_eq`) asks that the entries of
  `P` and `V` be real numbers.

  The score of class `c` is then `∑_d sgn(bundle[r, d]) · W[c, d]`, with `sgn s` being `1` where `0 < s`
  and `-1` elsewhere (`logit`, `logitK`).
-/
import Idealize.ShloMosaic.PureOps.Ideal
import Idealize.ShloMosaic.PureOps.Ideal.Laws
import Idealize.ShloMosaic.Lib.ValueIdx
import proofs.«129407_j30992484008577_1_alg».proof.Proof.LibOneHot

noncomputable section

namespace Cert.Encode

open Idealize.ShloMosaic Idealize.ShloMosaic.ValueIdx Cert.LibOneHot

/-! ## The level of a pixel value -/

/-- The level word of a pixel value: `x · 9`, rounded half to even, clamped below by `0` and above by `9`
    (the bounds given as the integer words `0` and `9` converted to reals), converted to a 32-bit integer. -/
def level (x : EReal) : BitVec 32 :=
  Ideal.fptosi 32 (min (((9#32 : BitVec 32).toInt : ℝ) : EReal)
    (max (((0#32 : BitVec 32).toInt : ℝ) : EReal)
      (Ideal.liftRound Ideal.roundHalfEven (x * Ideal.ofBits .f32 0x41100000#32))))

/-- A real in `[0, 9]` converts (toward zero, inside the 32-bit range) to a word below ten: its floor. -/
theorem fptosi_small (r : ℝ) (h0 : 0 ≤ r) (h9 : r ≤ 9) : (Ideal.fptosi 32 (r : EReal)).toNat < 10 := by
  rw [Ideal.fptosi, Ideal.toIntClamped_coe, if_pos h0]
  have f0 : 0 ≤ ⌊r⌋ := Int.floor_nonneg.2 h0
  have f9 : ⌊r⌋ < 10 := Int.floor_lt.2 (by push_cast; linarith)
  generalize ⌊r⌋ = n at f0 f9
  rw [BitVec.toNat_ofInt]
  norm_num
  omega

/-- Clamping ANY extended real into `[0, 9]` gives a real number there: the infinities are cut off. -/
theorem clamp_real (z : EReal) :
    ∃ r : ℝ, min ((9 : ℝ) : EReal) (max ((0 : ℝ) : EReal) z) = (r : EReal) ∧ 0 ≤ r ∧ r ≤ 9 := by
  have hle : min ((9 : ℝ) : EReal) (max ((0 : ℝ) : EReal) z) ≤ ((9 : ℝ) : EReal) := min_le_left _ _
  have hge : ((0 : ℝ) : EReal) ≤ min ((9 : ℝ) : EReal) (max ((0 : ℝ) : EReal) z) :=
    le_min (by exact_mod_cast (by norm_num : (0:ℝ) ≤ 9)) (le_max_left _ _)
  generalize min ((9 : ℝ) : EReal) (max ((0 : ℝ) : EReal) z) = y at hle hge
  induction y using EReal.rec with
  | bot => exact absurd hge (by simp)
  | top => exact absurd hle (by simp)
  | coe r => exact ⟨r, rfl, by exact_mod_cast hge, by exact_mod_cast hle⟩

/-- Every level word is below ten. -/
theorem level_lt (x : EReal) : (level x).toNat < 10 := by
  unfold level
  have e9 : (((9#32 : BitVec 32).toInt : ℝ) : EReal) = ((9 : ℝ) : EReal) := by
    have : (9#32 : BitVec 32).toInt = 9 := by decide
    rw [this]; norm_num
  have e0 : (((0#32 : BitVec 32).toInt : ℝ) : EReal) = ((0 : ℝ) : EReal) := by
    have : (0#32 : BitVec 32).toInt = 0 := by decide
    rw [this]; norm_num
  rw [e9, e0]
  obtain ⟨r, hr, h0, h9⟩ := clamp_real (Ideal.liftRound Ideal.roundHalfEven (x * Ideal.ofBits .f32 0x41100000#32))
  rw [hr]
  exact fptosi_small r h0 h9

/-- The level as a row number of a ten-row table. -/
def lv (x : EReal) : Fin 10 := ⟨(level x).toNat, level_lt x⟩

theorem level_eq (x : EReal) : level x = BitVec.ofNat 32 (lv x).val :=
  BitVec.eq_of_toNat_eq (by
    rw [BitVec.toNat_ofNat]
    exact (Nat.mod_eq_of_lt (lt_trans (lv x).isLt (by norm_num))).symm)

/-- Numbers below ten are distinct as 32-bit words. -/
theorem ofNat_inj10 (j k : Fin 10) : BitVec.ofNat 32 j.val = BitVec.ofNat 32 k.val ↔ j = k := by
  revert j k; decide

/-- The MASK of level `k` at a pixel value: one where the pixel's level is `k`, zero elsewhere. -/
theorem mask_val (x : EReal) (l : BitVec 32) (k : Fin 10) (hk : l = BitVec.ofNat 32 k.val) :
    ((((IntOp.cmpi .eq (level x) l).setWidth 32).toInt : ℝ) : EReal) = if lv x = k then 1 else 0 := by
  rw [cmpi_eq_toInt, hk, level_eq]
  exact if_congr (ofNat_inj10 _ _) rfl rfl

/-- A level is never negative, so replacing a negative row number `i` by `i + 10` leaves a level alone. -/
theorem wrap_level (x : EReal) :
    Scalar.select (IntOp.cmpi .slt (level x) 0#32) (IntOp.addi (level x) 10#32) (level x) = level x := by
  rw [level_eq]; generalize lv x = k; revert k; decide

/-- Read as a signed integer and clamped into the ten rows, a level is its own row number. -/
theorem clamp_level (x : EReal) : min (level x).toInt.toNat (10 - 1) = (lv x).val := by
  rw [level_eq]; generalize lv x = k; revert k; decide

/-! ## Ten terms, one after the other -/

/-- Ten terms added one after the other onto zero are the sum over the ten rows. -/
theorem ten_sum (f : Fin 10 → ℝ) :
    0 + f 0 + f 1 + f 2 + f 3 + f 4 + f 5 + f 6 + f 7 + f 8 + f 9 = ∑ l, f l := by
  simp [Fin.sum_univ_succ]
  ring

/-! ## The bundle and the class scores, on extended reals -/

section
variable {n : Nat}

/-- The sum of the position entries (column `d`) of the pixels of row `r` whose level is `l`. -/
def maskSum (X : (⟨2, ![n, 784]⟩ : Shape).Idx → EReal) (P : (⟨2, ![784, 1000]⟩ : Shape).Idx → EReal)
    (l : Fin 10) (r : Fin n) (d : Fin 1000) : EReal :=
  ∑ k : Fin 784, (if lv (X (ix2 r k)) = l then 1 else 0) * P (ix2 k d)

/-- The bundle arranged level by level: the ten scaled mask sums added one after the other onto zero. -/
def bundleK (X : (⟨2, ![n, 784]⟩ : Shape).Idx → EReal) (P : (⟨2, ![784, 1000]⟩ : Shape).Idx → EReal)
    (V : (⟨2, ![10, 1000]⟩ : Shape).Idx → EReal) (r : Fin n) (d : Fin 1000) : EReal :=
  0 + maskSum X P 0 r d * V (ix2 0 d) + maskSum X P 1 r d * V (ix2 1 d) + maskSum X P 2 r d * V (ix2 2 d)
    + maskSum X P 3 r d * V (ix2 3 d) + maskSum X P 4 r d * V (ix2 4 d) + maskSum X P 5 r d * V (ix2 5 d)
    + maskSum X P 6 r d * V (ix2 6 d) + maskSum X P 7 r d * V (ix2 7 d) + maskSum X P 8 r d * V (ix2 8 d)
    + maskSum X P 9 r d * V (ix2 9 d)

/-- The bundle arranged position by position: each position binds its entry with the row its pixel's level picks. -/
def bundle (X : (⟨2, ![n, 784]⟩ : Shape).Idx → EReal) (P : (⟨2, ![784, 1000]⟩ : Shape).Idx → EReal)
    (V : (⟨2, ![10, 1000]⟩ : Shape).Idx → EReal) (r : Fin n) (d : Fin 1000) : EReal :=
  ∑ k : Fin 784, P (ix2 k d) * V (ix2 (lv (X (ix2 r k))) d)

/-- On tables of real numbers the two arrangements are one number. -/
theorem bundleK_eq (X : (⟨2, ![n, 784]⟩ : Shape).Idx → EReal) (P : (⟨2, ![784, 1000]⟩ : Shape).Idx → EReal)
    (V : (⟨2, ![10, 1000]⟩ : Shape).Idx → EReal) (hP : ∀ i, ∃ r : ℝ, P i = r) (hV : ∀ i, ∃ r : ℝ, V i = r)
    (r : Fin n) (d : Fin 1000) : bundleK X P V r d = bundle X P V r d := by
  choose P' hP' using hP
  choose V' hV' using hV
  have key : ∀ l : Fin 10, maskSum X P l r d * V (ix2 l d)
      = (((∑ k, (if lv (X (ix2 r k)) = l then (1:ℝ) else 0) * P' (ix2 k d)) * V' (ix2 l d) : ℝ) : EReal) := by
    intro l
    unfold maskSum
    rw [EReal.coe_mul, coe_sum, hV']
    congr 1
    refine Finset.sum_congr rfl fun k _ => ?_
    rw [EReal.coe_mul, hP']
    congr 1
    split_ifs <;> simp
  have rhs : bundle X P V r d = ((∑ k, P' (ix2 k d) * V' (ix2 (lv (X (ix2 r k))) d) : ℝ) : EReal) := by
    unfold bundle
    rw [coe_sum]
    exact Finset.sum_congr rfl fun k _ => by rw [EReal.coe_mul, hP', hV']
  unfold bundleK
  rw [key 0, key 1, key 2, key 3, key 4, key 5, key 6, key 7, key 8, key 9, rhs, ← EReal.coe_zero]
  simp only [← EReal.coe_add]
  exact congrArg Real.toEReal ((ten_sum (fun l => (∑ k, (if lv (X (ix2 r k)) = l then (1:ℝ) else 0) * P' (ix2 k d)) * V' (ix2 l d))).trans
    (onehot_sum (fun k => lv (X (ix2 r k))) (fun k => P' (ix2 k d)) (fun l => V' (ix2 l d))))

/-- The hard quantization of a bundle entry: `1` where it is positive, `-1` elsewhere. -/
def sgn (s : EReal) : EReal :=
  Scalar.select (Ideal.cmp .ogt s (Ideal.ofBits .f32 0x00000000#32))
    (Ideal.ofBits .f32 0x3F800000#32) (Ideal.ofBits .f32 0xBF800000#32)

/-- The score of class `c` for image row `r`, over the bundle arranged level by level. -/
def logitK (X : (⟨2, ![n, 784]⟩ : Shape).Idx → EReal) (P : (⟨2, ![784, 1000]⟩ : Shape).Idx → EReal)
    (V W : (⟨2, ![10, 1000]⟩ : Shape).Idx → EReal) (r : Fin n) (c : Fin 10) : EReal :=
  ∑ d : Fin 1000, sgn (bundleK X P V r d) * W (ix2 c d)

/-- The score of class `c` for image row `r`, over the bundle arranged position by position. -/
def logit (X : (⟨2, ![n, 784]⟩ : Shape).Idx → EReal) (P : (⟨2, ![784, 1000]⟩ : Shape).Idx → EReal)
    (V W : (⟨2, ![10, 1000]⟩ : Shape).Idx → EReal) (r : Fin n) (c : Fin 10) : EReal :=
  ∑ d : Fin 1000, sgn (bundle X P V r d) * W (ix2 c d)

theorem logitK_eq (X : (⟨2, ![n, 784]⟩ : Shape).Idx → EReal) (P : (⟨2, ![784, 1000]⟩ : Shape).Idx → EReal)
    (V W : (⟨2, ![10, 1000]⟩ : Shape).Idx → EReal) (hP : ∀ i, ∃ r : ℝ, P i = r) (hV : ∀ i, ∃ r : ℝ, V i = r)
    (r : Fin n) (c : Fin 10) : logitK X P V W r c = logit X P V W r c := by
  unfold logitK logit
  exact Finset.sum_congr rfl fun d _ => by rw [bundleK_eq X P V hP hV r d]

/-- The score of a row depends only on that row's pixels (and on the three tables): two images, of any heights,
    that agree along one row of each give that row the same scores. -/
theorem logitK_blocks {n' : Nat} (X : (⟨2, ![n, 784]⟩ : Shape).Idx → EReal) (X' : (⟨2, ![n', 784]⟩ : Shape).Idx → EReal)
    (P P' : (⟨2, ![784, 1000]⟩ : Shape).Idx → EReal) (V V' W W' : (⟨2, ![10, 1000]⟩ : Shape).Idx → EReal)
    (r : Fin n) (r' : Fin n') (c c' : Fin 10) (hX : ∀ k : Fin 784, X (ix2 r k) = X' (ix2 r' k))
    (hP : P = P') (hV : V = V') (hW : W = W') (hc : c = c') :
    logitK X P V W r c = logitK X' P' V' W' r' c' := by
  subst hP hV hW hc
  unfold logitK bundleK maskSum
  simp only [hX]

/-- The scores as an array: entry `(r, c)` is the score of class `c` for image row `r`. -/
def logits (X : (⟨2, ![n, 784]⟩ : Shape).Idx → EReal) (P : (⟨2, ![784, 1000]⟩ : Shape).Idx → EReal)
    (V W : (⟨2, ![10, 1000]⟩ : Shape).Idx → EReal) : (⟨2, ![n, 10]⟩ : Shape).Idx → EReal :=
  fun i => logit X P V W ⟨(i 0).val, idx2_lt0 i⟩ ⟨(i 1).val, idx2_lt1 i⟩

/-- The same over the level-by-level arrangement. -/
def logitsK (X : (⟨2, ![n, 784]⟩ : Shape).Idx → EReal) (P : (⟨2, ![784, 1000]⟩ : Shape).Idx → EReal)
    (V W : (⟨2, ![10, 1000]⟩ : Shape).Idx → EReal) : (⟨2, ![n, 10]⟩ : Shape).Idx → EReal :=
  fun i => logitK X P V W ⟨(i 0).val, idx2_lt0 i⟩ ⟨(i 1).val, idx2_lt1 i⟩

theorem logitsK_eq (X : (⟨2, ![n, 784]⟩ : Shape).Idx → EReal) (P : (⟨2, ![784, 1000]⟩ : Shape).Idx → EReal)
    (V W : (⟨2, ![10, 1000]⟩ : Shape).Idx → EReal) (hP : ∀ i, ∃ r : ℝ, P i = r) (hV : ∀ i, ∃ r : ℝ, V i = r) :
    logitsK X P V W = logits X P V W :=
  funext fun _ => logitK_eq X P V W hP hV _ _

end

end Cert.Encode

end
-- ==== Proof.LibTakeRows.lean ====
/-
  Rows of a table picked by an integer array: `table[idx]` for a table of shape `[N, C]` and an integer array
  `idx` of shape `[R, K]`, as a gather with the start indices given as `[R, K, 1]` — offset axis `2` of the result,
  axis `0` of the table collapsed and named by the start index, slices of one whole row `[1, C]`.

  Result element `(r, k, c)` is the table at row `idx[r, k, 0]` — read as a signed integer and clamped into
  `[0, N − 1]`, as a gather clamps every start index so that its slice fits — and column `c`
  (`gather_take_rows_apply`). A program's own record of these dimension numbers is `takeRowsDims` with the
  program's extents, by unfolding.
-/
import Idealize.ShloMosaic.Lib.ValueIdx

noncomputable section

namespace Cert.LibTakeRows

open Idealize.ShloMosaic Idealize.ShloMosaic.ValueIdx

variable {α : Type}

/-- The dimension numbers of `table[idx]` for a table `[N, C]`, start indices `[R, K, 1]` and result `[R, K, C]`;
    their conditions `wf` are decided on a program's literal shapes. -/
abbrev takeRowsDims (N C R K : Nat)
    (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- THE LOOKUP READ AT `(r, k, c)`: the table at the row `idx[r, k, 0]` names, read signed and clamped into the
    table's rows, and column `c`. -/
theorem gather_take_rows_apply {N C R K w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (r : Fin R) (k : Fin K) (c : Fin C) :
    Host.gather (takeRowsDims N C R K wf) x idx (ix3 r k c)
      = x (ix2 ⟨min (idx (ix3 r k (0 : Fin 1))).toInt.toNat (N - 1), by omega⟩ c) := by
  unfold Host.gather
  refine congrArg x (funext fun a => Fin.ext ?_)
  match a with
  | ⟨0, _⟩ =>
    show (takeRowsDims N C R K wf).start (ix3 r k c) idx 0 + (takeRowsDims N C R K wf).batchCoord (ix3 r k c) 0
      + (takeRowsDims N C R K wf).offCoord (ix3 r k c) 0 = min (idx (ix3 r k (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N C R K wf).startIndexMap from List.mem_singleton.mpr rfl)]
    have hsi : (takeRowsDims N C R K wf).siIdx (ix3 r k c) ⟨List.idxOf (0 : Fin 2) (takeRowsDims N C R K wf).startIndexMap,
        List.idxOf_lt_length_iff.2 (List.mem_singleton.mpr rfl)⟩ = ix3 r k (0 : Fin 1) := by
      funext e; refine Fin.ext ?_
      match e with
      | ⟨0, _⟩ => rfl
      | ⟨1, _⟩ => rfl
      | ⟨2, _⟩ => rfl
    rw [hsi]
    rfl
  | ⟨1, _⟩ =>
    show (takeRowsDims N C R K wf).start (ix3 r k c) idx 1 + (takeRowsDims N C R K wf).batchCoord (ix3 r k c) 1
      + (takeRowsDims N C R K wf).offCoord (ix3 r k c) 1 = c.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept (takeRowsDims N C R K wf) 1).mpr
      ⟨(show ¬ (1 : Fin 2) ∈ ([0] : List (Fin 2)) by decide), List.not_mem_nil⟩)]
    simp only [Nat.zero_add]
    rfl

end Cert.LibTakeRows

end
-- ==== Proof.RefScores.lean ====
/-
  The reference's result, read index by index, is the class scores of `LevelBundle`: entry `(b, c)` is
  `∑_d sgn(bundle[b, d]) · W[c, d]` over the image flattened to 256 rows of 784 pixels.

  The level of pixel `(b, k)` is read off the chain multiply by nine, round, clamp, convert (`ref_level`);
  the step that replaces a negative row number `i` by `i + 10` does nothing to a level (`ref_row`); the
  table lookup at row `(b, k)`, column `d` reads the table at the level's row and column `d`, its row
  number clamped into the ten rows, where a level already lies (`ref_gather`, over `LibTakeRows`). The sum over the 784 positions
  starts from zero (`ref_bundle`), the sign step is `sgn` (`ref_sgn`), and the last contraction pairs column
  `d` of the signs with entry `(c, d)` of the weights, the weights having been transposed first.
-/
import proofs.«129407_j30992484008577_1_alg».proof.Proof.Gen.ReferenceIdeal.Read
import proofs.«129407_j30992484008577_1_alg».proof.Proof.LevelBundle
import proofs.«129407_j30992484008577_1_alg».proof.Proof.LibTakeRows

noncomputable section

namespace Cert.Encode.Ref

open Cert.ReferenceIdeal Cert.ReferenceIdeal.Gen Cert.ReferenceIdeal.Read Idealize.ShloMosaic Idealize.ShloMosaic.TcCoe
  Idealize.ShloMosaic.ValueIdx Cert.Encode Cert.LibTakeRows

variable (x0 : (⟨S256x28x28, .f32⟩ : BufTy).Contents (Elt Ideal)) (x1 : (⟨S784x1000, .f32⟩ : BufTy).Contents (Elt Ideal))
  (x2 x3 : (⟨S10x1000, .f32⟩ : BufTy).Contents (Elt Ideal))

/-- The integer word the reference computes for pixel `(b, k)` is the level of the flattened image's entry. -/
theorem ref_level (b : Fin 256) (k : Fin 784) :
    val_main_v5 (F := Ideal) x0 (ix2 b k) = level (val_main_v0 (F := Ideal) x0 (ix2 b k)) := by
  rw [val_main_v5_apply, val_main_v4_apply, val_main_call1_v4_apply, val_main_call1_v3_apply, val_main_c_0_apply,
    val_main_call1_v2_apply, val_main_call1_v1_apply, val_main_call1_v0_apply, val_main_c_apply,
    val_main_v3_apply, val_main_v2_apply, val_main_v1_apply, val_main_cst_apply]
  rfl

/-- Wrapping negative row numbers leaves the level as it is. -/
theorem ref_row (b : Fin 256) (k : Fin 784) :
    val_main_v10 (F := Ideal) x0 (ix2 b k) = level (val_main_v0 (F := Ideal) x0 (ix2 b k)) := by
  rw [val_main_v10_apply, val_main_v7_apply, val_main_v9_apply, val_main_v6_apply, val_main_c_1_apply,
    val_main_v8_apply, val_main_c_2_apply, ref_level]
  exact wrap_level _

/-- The table lookup at `(b, k, d)` reads the table at the row of pixel `(b, k)`'s level, column `d`. -/
theorem ref_gather (b : Fin 256) (k : Fin 784) (d : Fin 1000) :
    val_main_v12 (F := Ideal) x0 x2 (ix3 b k d) = x2 (ix2 (lv (val_main_v0 (F := Ideal) x0 (ix2 b k))) d) := by
  unfold val_main_v12
  refine (gather_take_rows_apply (N := 10) (C := 1000) (R := 256) (K := 784) (by decide)
    Facts₀.gather_S10x1000_S256x784x1_S256x784x1000_2_0_n_n_0_2_11000_wf x2 (val_main_v11 (F := Ideal) x0) b k d).trans ?_
  have e11 : idx_main_v11 (ix3 b k (0 : Fin 1)) = ix2 b k :=
    funext fun a => Fin.ext (by match a with | ⟨0, _⟩ => rfl | ⟨1, _⟩ => rfl)
  have hrow : min (val_main_v11 (F := Ideal) x0 (ix3 b k (0 : Fin 1))).toInt.toNat (10 - 1)
      = (lv (val_main_v0 (F := Ideal) x0 (ix2 b k))).val := by
    rw [val_main_v11_apply, e11, ref_row]
    exact clamp_level _
  exact congrArg (fun z : Fin 10 => x2 (ix2 z d)) (Fin.ext hrow)

/-- The reference's sum over the 784 positions, started from zero, is the bundle arranged position by position. -/
theorem ref_bundle (b : Fin 256) (d : Fin 1000) :
    val_main_v16 (F := Ideal) x0 x1 x2 (ix2 b d) = bundle (val_main_v0 (F := Ideal) x0) x1 x2 b d := by
  rw [val_main_v16_apply, val_main_cst_3_apply]
  show Ideal.ofBits .f32 0x00000000#32 + _ = _
  rw [Ideal.ofBits_zero_f32, zero_add]
  unfold bundle
  refine Finset.sum_congr rfl fun k _ => ?_
  have e16 : idx_main_v16 (ix2 b d) k = ix3 b k d :=
    funext fun a => Fin.ext (by match a with | ⟨0, _⟩ => rfl | ⟨1, _⟩ => rfl | ⟨2, _⟩ => rfl)
  rw [e16, val_main_v15_apply, val_main_v14_apply, val_main_v13_apply, ref_gather]
  have e14 : idx_main_v13 (idx_main_v14 (ix3 b k d)) = ix2 k d :=
    funext fun a => Fin.ext (by match a with | ⟨0, _⟩ => rfl | ⟨1, _⟩ => rfl)
  rw [e14]
  rfl

/-- The reference's sign step is `sgn` of the bundle. -/
theorem ref_sgn (b : Fin 256) (d : Fin 1000) :
    val_main_v20 (F := Ideal) x0 x1 x2 (ix2 b d) = sgn (bundle (val_main_v0 (F := Ideal) x0) x1 x2 b d) := by
  rw [val_main_v20_apply, val_main_v19_apply, val_main_v18_apply, ref_bundle, val_main_v17_apply, val_main_cst_4_apply,
    val_main_call2_v0_apply, val_main_cst_5_apply, val_main_call2_v1_apply, val_main_cst_6_apply]
  rfl

/-- THE REFERENCE'S RESULT is the array of class scores of the flattened image. -/
theorem ref_scores : val_main_v22 (F := Ideal) x0 x1 x2 x3 = logits (val_main_v0 (F := Ideal) x0) x1 x2 x3 := by
  funext i
  obtain ⟨b, c, rfl⟩ : ∃ (b : Fin 256) (c : Fin 10), i = ix2 b c := ⟨i 0, i 1, eq_ix2 i⟩
  rw [val_main_v22_apply]
  show _ = ∑ d : Fin 1000, sgn (bundle (val_main_v0 (F := Ideal) x0) x1 x2 b d) * x3 (ix2 c d)
  refine Finset.sum_congr rfl fun d _ => ?_
  have el : lidx_main_v22 (ix2 b c) d = ix2 b d :=
    funext fun a => Fin.ext (by match a with | ⟨0, _⟩ => rfl | ⟨1, _⟩ => rfl)
  have er : ridx_main_v22 (ix2 b c) d = ix2 d c :=
    funext fun a => Fin.ext (by match a with | ⟨0, _⟩ => rfl | ⟨1, _⟩ => rfl)
  rw [el, er, val_main_v21_apply, ref_sgn]
  have e21 : idx_main_v21 (ix2 d c) = ix2 c d :=
    funext fun a => Fin.ext (by match a with | ⟨0, _⟩ => rfl | ⟨1, _⟩ => rfl)
  rw [e21]

end Cert.Encode.Ref

end
-- ==== Proof.KernelBody.lean ====
/-
  What the kernel's body leaves in its output block, as a function of its four input blocks: entry `(r, c)` is the
  score of class `c` for row `r` of the block, `∑_d sgn(bundleK[r, d]) · W[c, d]`, the bundle arranged level by
  level (`body_scores`).

  The body computes the level word of every pixel once. For each level `l = 0, …, 9` it compares the level words
  with `l`, turns the comparison into a 0/1 matrix (the mask), multiplies the mask with the position table — at
  `(r, d)` the sum over the 784 positions `k` of `mask[r, k] · P[k, d]` (`mm1_apply`) — and scales column `d`
  by row `l` of the level table, which it loads as a one-row block and spreads over the 128 rows (`row_ld`,
  `row_bc`). The ten results are added one after the other onto zero (`body_bundle`). A change of float format is
  the identity on extended reals, so the narrowing of the masks, of the position table and of the signs leaves the
  values as they are. The last product contracts column `d` of the signs with entry `(c, d)` of the weights
  (`mm2_apply`).
-/
import proofs.«129407_j30992484008577_1_alg».proof.Proof.Gen.KernelIdeal.Frame
import proofs.«129407_j30992484008577_1_alg».proof.Proof.LevelBundle
import Idealize.ShloMosaic.Lib.Pipeline.Value
import Idealize.ShloMosaic.Lib.ValueIdx
import Idealize.ShloMosaic.Lib.ValueLayout
import Idealize.ShloMosaic.PureOps.Ideal.Laws

noncomputable section

namespace Cert.Encode.Kernel

open Cert.KernelIdeal Cert.KernelIdeal.Gen Idealize.ShloMosaic Idealize.ShloMosaic.TcCoe Idealize.ShloMosaic.ValueIdx Cert.Encode

/-! ## The two matrix products read at an index -/

theorem mm1_l0 (j : S128x1000.Idx) (q : dot_S128x784_S784x1000_S128x1000_1_0_0_1_n_n.contr.Idx) : (dot_S128x784_S784x1000_S128x1000_1_0_0_1_n_n.lhsIdx j q 0).val = (j 0).val := by
  unfold DotDims.lhsIdx
  rw [dif_neg (show ¬(0 : Fin S128x784.rank) ∈ dot_S128x784_S784x1000_S128x1000_1_0_0_1_n_n.lhsBatch by decide),
    dif_pos (show (0 : Fin S128x784.rank) ∈ dot_S128x784_S784x1000_S128x1000_1_0_0_1_n_n.lhsNonContracting by decide)]
  rfl

theorem mm1_r1 (j : S128x1000.Idx) (q : dot_S128x784_S784x1000_S128x1000_1_0_0_1_n_n.contr.Idx) : (dot_S128x784_S784x1000_S128x1000_1_0_0_1_n_n.rhsIdx j q 1).val = (j 1).val := by
  unfold DotDims.rhsIdx
  rw [dif_neg (show ¬(1 : Fin S784x1000.rank) ∈ dot_S128x784_S784x1000_S128x1000_1_0_0_1_n_n.rhsBatch by decide),
    dif_pos (show (1 : Fin S784x1000.rank) ∈ dot_S128x784_S784x1000_S128x1000_1_0_0_1_n_n.rhsNonContracting by decide)]
  rfl

theorem mm1_apply (lhs : FVec Ideal S128x784 .bf16) (rhs : FVec Ideal S784x1000 .bf16) (r : Fin 128) (d : Fin 1000) :
    matmul dot_S128x784_S784x1000_S128x1000_1_0_0_1_n_n none lhs rhs (constant (F := Ideal) S128x1000 .f32 0x00000000#32) (ix2 r d)
      = ∑ k : Fin 784, lhs (ix2 r k) * rhs (ix2 k d) := by
  simp only [matmul]
  rw [Ideal.matmul_constant_zero_apply, ← Equiv.sum_comp (contrEquiv1 dot_S128x784_S784x1000_S128x1000_1_0_0_1_n_n 784 rfl rfl).symm]
  refine Finset.sum_congr rfl fun k _ => ?_
  have hk := contrEquiv1_symm_val dot_S128x784_S784x1000_S128x1000_1_0_0_1_n_n 784 rfl rfl k
  have el : dot_S128x784_S784x1000_S128x1000_1_0_0_1_n_n.lhsIdx (ix2 r d) ((contrEquiv1 dot_S128x784_S784x1000_S128x1000_1_0_0_1_n_n 784 rfl rfl).symm k) = ix2 r k := funext fun a => Fin.ext (by
    match a with
    | ⟨0, _⟩ => exact mm1_l0 _ _
    | ⟨1, _⟩ => exact (dot_S128x784_S784x1000_S128x1000_1_0_0_1_n_n.lhsIdx_val_of_single rfl _ _).trans hk)
  have er : dot_S128x784_S784x1000_S128x1000_1_0_0_1_n_n.rhsIdx (ix2 r d) ((contrEquiv1 dot_S128x784_S784x1000_S128x1000_1_0_0_1_n_n 784 rfl rfl).symm k) = ix2 k d := funext fun a => Fin.ext (by
    match a with
    | ⟨0, _⟩ => exact (dot_S128x784_S784x1000_S128x1000_1_0_0_1_n_n.rhsIdx_val_of_single rfl _ _).trans hk
    | ⟨1, _⟩ => exact mm1_r1 _ _)
  rw [el, er]

theorem mm2_l0 (j : S128x10.Idx) (q : dot_S128x1000_S10x1000_S128x10_1_1_0_0_n_n.contr.Idx) : (dot_S128x1000_S10x1000_S128x10_1_1_0_0_n_n.lhsIdx j q 0).val = (j 0).val := by
  unfold DotDims.lhsIdx
  rw [dif_neg (show ¬(0 : Fin S128x1000.rank) ∈ dot_S128x1000_S10x1000_S128x10_1_1_0_0_n_n.lhsBatch by decide),
    dif_pos (show (0 : Fin S128x1000.rank) ∈ dot_S128x1000_S10x1000_S128x10_1_1_0_0_n_n.lhsNonContracting by decide)]
  rfl

theorem mm2_r0 (j : S128x10.Idx) (q : dot_S128x1000_S10x1000_S128x10_1_1_0_0_n_n.contr.Idx) : (dot_S128x1000_S10x1000_S128x10_1_1_0_0_n_n.rhsIdx j q 0).val = (j 1).val := by
  unfold DotDims.rhsIdx
  rw [dif_neg (show ¬(0 : Fin S10x1000.rank) ∈ dot_S128x1000_S10x1000_S128x10_1_1_0_0_n_n.rhsBatch by decide),
    dif_pos (show (0 : Fin S10x1000.rank) ∈ dot_S128x1000_S10x1000_S128x10_1_1_0_0_n_n.rhsNonContracting by decide)]
  rfl

theorem mm2_apply (lhs : FVec Ideal S128x1000 .bf16) (rhs : FVec Ideal S10x1000 .bf16) (r : Fin 128) (c : Fin 10) :
    matmul dot_S128x1000_S10x1000_S128x10_1_1_0_0_n_n none lhs rhs (constant (F := Ideal) S128x10 .f32 0x00000000#32) (ix2 r c)
      = ∑ d : Fin 1000, lhs (ix2 r d) * rhs (ix2 c d) := by
  simp only [matmul]
  rw [Ideal.matmul_constant_zero_apply, ← Equiv.sum_comp (contrEquiv1 dot_S128x1000_S10x1000_S128x10_1_1_0_0_n_n 1000 rfl rfl).symm]
  refine Finset.sum_congr rfl fun k _ => ?_
  have hk := contrEquiv1_symm_val dot_S128x1000_S10x1000_S128x10_1_1_0_0_n_n 1000 rfl rfl k
  have el : dot_S128x1000_S10x1000_S128x10_1_1_0_0_n_n.lhsIdx (ix2 r c) ((contrEquiv1 dot_S128x1000_S10x1000_S128x10_1_1_0_0_n_n 1000 rfl rfl).symm k) = ix2 r k := funext fun a => Fin.ext (by
    match a with
    | ⟨0, _⟩ => exact mm2_l0 _ _
    | ⟨1, _⟩ => exact (dot_S128x1000_S10x1000_S128x10_1_1_0_0_n_n.lhsIdx_val_of_single rfl _ _).trans hk)
  have er : dot_S128x1000_S10x1000_S128x10_1_1_0_0_n_n.rhsIdx (ix2 r c) ((contrEquiv1 dot_S128x1000_S10x1000_S128x10_1_1_0_0_n_n 1000 rfl rfl).symm k) = ix2 c k := funext fun a => Fin.ext (by
    match a with
    | ⟨0, _⟩ => exact mm2_r0 _ _
    | ⟨1, _⟩ => exact (dot_S128x1000_S10x1000_S128x10_1_1_0_0_n_n.rhsIdx_val_of_single rfl _ _).trans hk)
  rw [el, er]

/-! ## One table row spread over the 128 rows of a block -/

theorem row_bc (v : Vec Ideal S1x1000 .f32) (r : Fin 128) (d : Fin 1000) :
    broadcastTo S128x1000 (shapeCast S1x1000 (shapeCast S1000 v shapeCasts_S1x1000_S1000) shapeCasts_S1000_S1x1000)
      broadcasts_S1x1000_S128x1000 (ix2 r d) = v (ix2 (0 : Fin 1) d) := by
  rw [shapeCast_shapeCast]
  exact broadcastTo_1b_ab_apply v broadcasts_S1x1000_S128x1000 r d

/-! ## One level's term -/

theorem term_apply (lvv : IVec S128x784 32) (pos : FVec Ideal S784x1000 .bf16) (l : BitVec 32) (v : Vec Ideal S1x1000 .f32)
    (r : Fin 128) (d : Fin 1000) :
    mulf (matmul dot_S128x784_S784x1000_S128x1000_1_0_0_1_n_n none (truncf .bf16 (sitofp .f32 (extui 32 (cmpi .eq lvv (broadcast S128x784 l)) natLt_1_32)) bitsLt_bf16_f32)
        pos (constant (F := Ideal) S128x1000 .f32 0x00000000#32))
      (broadcastTo S128x1000 (shapeCast S1x1000 (shapeCast S1000 v shapeCasts_S1x1000_S1000) shapeCasts_S1000_S1x1000)
        broadcasts_S1x1000_S128x1000) (ix2 r d)
      = (∑ k : Fin 784, ((((IntOp.cmpi .eq (lvv (ix2 r k)) l).setWidth 32).toInt : ℝ) : EReal) * pos (ix2 k d)) * v (ix2 (0 : Fin 1) d) := by
  rw [mulf_apply, mm1_apply, row_bc]
  rfl

theorem pay2_apply (v0 : Vec Ideal S128x784 .f32) (r : Fin 128) (k : Fin 784) :
    k0_pay2 v0 (ix2 r k) = level (v0 (ix2 r k)) := by
  unfold k0_pay2
  simp only [shapeCast_self]
  rfl

/-- The sum, over positions, of the mask of level `l'` times the position entries is `maskSum`. -/
theorem mask_sum (x0 : Vec Ideal S128x784 .f32) (x1 : Vec Ideal S784x1000 .f32) (l : BitVec 32) (l' : Fin 10)
    (hl : l = BitVec.ofNat 32 l'.val) (r : Fin 128) (d : Fin 1000) :
    (∑ k : Fin 784, ((((IntOp.cmpi .eq (k0_pay2 x0 (ix2 r k)) l).setWidth 32).toInt : ℝ) : EReal) * k0_pay3 x1 (ix2 k d))
      = maskSum x0 x1 l' r d := by
  unfold maskSum
  refine Finset.sum_congr rfl fun k _ => ?_
  rw [pay2_apply, mask_val _ _ l' hl]
  rfl

/-- Row `l` of the ten-row table, loaded as a one-row block, read at column `d`. -/
theorem row_ld (x2 : Vec Ideal S10x1000 .f32) (l : Nat) (hl : l < 10) (inb : ∀ a, (![l, 0] : Fin 2 → Nat) a + S1x1000.size a ≤ S10x1000.size a)
    (d : Fin 1000) :
    View.ld x2 (Rect.unit (s := S10x1000) ![l, 0] S1x1000.size inb) (ix2 (0 : Fin 1) d) = x2 (ix2 (⟨l, hl⟩ : Fin 10) d) := by
  refine congrArg x2 (funext fun a => Fin.ext ?_)
  match a with
  | ⟨0, _⟩ => show l + 1 * 0 = l; omega
  | ⟨1, _⟩ => show 0 + 1 * d.val = d.val; omega

theorem body_bundle (x0 : Vec Ideal S128x784 .f32) (x1 : Vec Ideal S784x1000 .f32) (x2 : Vec Ideal S10x1000 .f32)
    (r : Fin 128) (d : Fin 1000) :
    addf (k0_pay7 (k0_pay2 x0) (k0_pay3 x1) (k0_pay6 (k0_pay2 x0) (k0_pay3 x1) (k0_pay4 x0 x1 (View.ld x2 r0_2) (View.ld x2 r0_3)) (k0_pay5 x0) (View.ld x2 r0_4) (View.ld x2 r0_5) (View.ld x2 r0_6) (View.ld x2 r0_7)) (View.ld x2 r0_8) (View.ld x2 r0_9) (View.ld x2 r0_10))
      (mulf (k0_pay8 (k0_pay2 x0) (k0_pay3 x1))
        (broadcastTo S128x1000 (shapeCast S1x1000 (k0_pay9 (View.ld x2 r0_11)) shapeCasts_S1000_S1x1000) broadcasts_S1x1000_S128x1000)) (ix2 r d)
      = bundleK x0 x1 x2 r d := by
  unfold k0_pay7 k0_pay6 k0_pay4 k0_pay5 k0_pay8 k0_pay9
  simp only [addf_apply, term_apply, broadcast_apply]
  rw [mask_sum x0 x1 0#32 0 rfl r d, mask_sum x0 x1 1#32 1 rfl r d, mask_sum x0 x1 2#32 2 rfl r d,
    mask_sum x0 x1 3#32 3 rfl r d, mask_sum x0 x1 4#32 4 rfl r d, mask_sum x0 x1 5#32 5 rfl r d,
    mask_sum x0 x1 6#32 6 rfl r d, mask_sum x0 x1 7#32 7 rfl r d, mask_sum x0 x1 8#32 8 rfl r d,
    mask_sum x0 x1 9#32 9 rfl r d]
  have e0 : View.ld x2 r0_2 (ix2 (0 : Fin 1) d) = x2 (ix2 (0 : Fin 10) d) := row_ld x2 0 (by decide) _ d
  have e1 : View.ld x2 r0_3 (ix2 (0 : Fin 1) d) = x2 (ix2 (1 : Fin 10) d) := row_ld x2 1 (by decide) _ d
  have e2 : View.ld x2 r0_4 (ix2 (0 : Fin 1) d) = x2 (ix2 (2 : Fin 10) d) := row_ld x2 2 (by decide) _ d
  have e3 : View.ld x2 r0_5 (ix2 (0 : Fin 1) d) = x2 (ix2 (3 : Fin 10) d) := row_ld x2 3 (by decide) _ d
  have e4 : View.ld x2 r0_6 (ix2 (0 : Fin 1) d) = x2 (ix2 (4 : Fin 10) d) := row_ld x2 4 (by decide) _ d
  have e5 : View.ld x2 r0_7 (ix2 (0 : Fin 1) d) = x2 (ix2 (5 : Fin 10) d) := row_ld x2 5 (by decide) _ d
  have e6 : View.ld x2 r0_8 (ix2 (0 : Fin 1) d) = x2 (ix2 (6 : Fin 10) d) := row_ld x2 6 (by decide) _ d
  have e7 : View.ld x2 r0_9 (ix2 (0 : Fin 1) d) = x2 (ix2 (7 : Fin 10) d) := row_ld x2 7 (by decide) _ d
  have e8 : View.ld x2 r0_10 (ix2 (0 : Fin 1) d) = x2 (ix2 (8 : Fin 10) d) := row_ld x2 8 (by decide) _ d
  have e9 : View.ld x2 r0_11 (ix2 (0 : Fin 1) d) = x2 (ix2 (9 : Fin 10) d) := row_ld x2 9 (by decide) _ d
  rw [e0, e1, e2, e3, e4, e5, e6, e7, e8, e9]
  have z : (FloatOps.ofBits (F := Ideal) FTy.f32 0#32 : Ideal .f32) = 0 := Ideal.ofBits_zero_f32
  rw [z]
  rfl

theorem hz : (![0, 0] : Fin 2 → Nat) = fun _ => 0 := funext fun a => by fin_cases a <;> rfl

/-- WHAT THE BODY STORES, from its four input blocks: the class scores of the block's 128 rows, the bundle arranged
    level by level. -/
theorem body_scores (x0 : Vec Ideal S128x784 .f32) (x1 : Vec Ideal S784x1000 .f32) (x2 x3 : Vec Ideal S10x1000 .f32) :
    out0_4 x0 x1 x2 x3 = logitsK x0 x1 x2 x3 := by
  funext i
  obtain ⟨r, c, rfl⟩ : ∃ (r : Fin 128) (c : Fin 10), i = ix2 r c := ⟨i 0, i 1, eq_ix2 i⟩
  unfold out0_4
  rw [View.canon_unit_zero hz]
  simp only [View.ld_unit_zero (S := S128x784) hz, View.ld_unit_zero (S := S784x1000) hz, View.ld_unit_zero (S := S10x1000) hz]
  unfold k0_pay1
  rw [mm2_apply]
  show _ = ∑ d : Fin 1000, sgn (bundleK x0 x1 x2 r d) * x3 (ix2 c d)
  refine Finset.sum_congr rfl fun d _ => ?_
  rw [← body_bundle x0 x1 x2 r d]
  rfl

end Cert.Encode.Kernel

end
-- ==== Proof.KernelArray.lean ====
/-
  From blocks to the whole array. The grid has two points; point `t` works on rows `128·t, …, 128·t + 127` of the
  flattened image and writes rows `128·t, …, 128·t + 127` of the 256 × 10 result, while the position table, the
  level table and the weights are each one block that every point sees whole.

  The score of a row depends only on that row's pixels, so what point `t` writes back is block `t` of the scores
  of the WHOLE flattened image (`flushed_eq`); the two blocks cover the result's 256 rows (`cover`: row `i` lies
  in block `i / 128`), hence after the run the result array is the scores of the whole image (`final`). The
  flattened image is the argument image re-laid by the one host operation in front of the kernel (`V_flat`).
-/
import proofs.«129407_j30992484008577_1_alg».proof.Proof.Gen.KernelIdeal.Value
import proofs.«129407_j30992484008577_1_alg».proof.Proof.KernelBody
import Idealize.ShloMosaic.Lib.StableHlo.Run

noncomputable section

namespace Cert.Encode.KernelArray

open Cert.KernelIdeal Cert.KernelIdeal.Gen Idealize.ShloMosaic Idealize.ShloMosaic.TcCoe Idealize.SL.Sem
  Idealize.ShloMosaic.ValueIdx Cert.Encode Cert.Encode.Kernel
open Idealize.ShloMosaic.Pipeline (Dat)

variable (m : (ℓ : Loc nD τ sig) → Buf (Elt Ideal) ℓ) (ρ : Dev nD → PrngReg)

/-- The index maps over the two grid points: the image's block moves with the result's on the row axis; every
    other block index is zero. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 1 :=
  (by decide +kernel : ∀ t : Fin grid0.N, _)

/-- Each of the result's two row blocks is some point's. -/
theorem idx_onto : ∀ q : Fin 2, ∃ t : Fin cfg0.N, win0_4.index t = ![q.val, 0] :=
  (by decide +kernel : ∀ q : Fin 2, ∃ t : Fin grid0.N, win0_4.index t = ![q.val, 0])

/-- WHAT POINT `t` WRITES BACK is block `t` of the scores of the whole flattened image. -/
theorem flushed_eq (c : Dev nD) (t : Fin cfg0.N) :
    (dats m 0 c).flushed 4 t = ((cfg0.win 4).blk t).view.read (Elt Ideal)
      (logitsK (V m c main_v0) (V m c main_arg1) (V m c main_arg2) (V m c main_arg3)) := by
  rw [Cert.KernelIdeal.Value.flushed4, body_scores]
  obtain ⟨e00, e01, e10, e11, e20, e21, e30, e31, e41, e40⟩ := idx_facts t
  funext j
  show logitK (iblk m c 0 t) (iblk m c 1 t) (iblk m c 2 t) (iblk m c 3 t) ⟨(j 0).val, idx2_lt0 j⟩ ⟨(j 1).val, idx2_lt1 j⟩
    = logitK (V m c main_v0) (V m c main_arg1) (V m c main_arg2) (V m c main_arg3)
        ⟨((((cfg0.win 4).blk t).view.emb j) 0).val, idx2_lt0 _⟩ ⟨((((cfg0.win 4).blk t).view.emb j) 1).val, idx2_lt1 _⟩
  refine logitK_blocks _ _ _ _ _ _ _ _ _ _ _ _ ?_ ?_ ?_ ?_ ?_
  · intro k
    show V m c main_v0 (((cfg0.win 0).blk t).view.emb (ix2 ⟨(j 0).val, idx2_lt0 j⟩ k)) = _
    refine congrArg _ (funext fun a => Fin.ext ?_)
    match a with
    | ⟨0, _⟩ =>
      show win0_0.index t (0 : Fin 2) * 128 + 1 * (j 0).val = win0_4.index t (0 : Fin 2) * 128 + 1 * (j 0).val
      omega
    | ⟨1, _⟩ =>
      show win0_0.index t (1 : Fin 2) * 784 + 1 * k.val = k.val
      omega
  · funext y
    show V m c main_arg1 (((cfg0.win 1).blk t).view.emb y) = V m c main_arg1 y
    refine congrArg _ (funext fun a => Fin.ext ?_)
    match a with
    | ⟨0, _⟩ => show win0_1.index t (0 : Fin 2) * 784 + 1 * (y 0).val = (y 0).val; omega
    | ⟨1, _⟩ => show win0_1.index t (1 : Fin 2) * 1000 + 1 * (y 1).val = (y 1).val; omega
  · funext y
    show V m c main_arg2 (((cfg0.win 2).blk t).view.emb y) = V m c main_arg2 y
    refine congrArg _ (funext fun a => Fin.ext ?_)
    match a with
    | ⟨0, _⟩ => show win0_2.index t (0 : Fin 2) * 10 + 1 * (y 0).val = (y 0).val; omega
    | ⟨1, _⟩ => show win0_2.index t (1 : Fin 2) * 1000 + 1 * (y 1).val = (y 1).val; omega
  · funext y
    show V m c main_arg3 (((cfg0.win 3).blk t).view.emb y) = V m c main_arg3 y
    refine congrArg _ (funext fun a => Fin.ext ?_)
    match a with
    | ⟨0, _⟩ => show win0_3.index t (0 : Fin 2) * 10 + 1 * (y 0).val = (y 0).val; omega
    | ⟨1, _⟩ => show win0_3.index t (1 : Fin 2) * 1000 + 1 * (y 1).val = (y 1).val; omega
  · refine Fin.ext ?_
    show (j 1).val = win0_4.index t (1 : Fin 2) * 10 + 1 * (j 1).val
    omega

/-- An index of the result is in point `t`'s block iff each coordinate is in the block's range on its axis. -/
theorem mem_blk (t : Fin cfg0.N) (i : S256x10.Idx) :
    i ∈ ((cfg0.win 4).blk t).view.set ↔ ∀ a : Fin 2, win0_4.index t a * S128x10.size a ≤ (i a).val
      ∧ (i a).val < win0_4.index t a * S128x10.size a + S128x10.size a := by
  show i ∈ ((View.whole main_v1).slice (win0_4.rect t)).set ↔ _
  rw [View.set_slice_whole, Rect.mem_set_unit]
  exact Iff.rfl

/-- Every index of the result lies in the block of the point that owns its row: row `i` in block `i / 128`. -/
theorem cover (i : S256x10.Idx) : ∃ t : Fin cfg0.N, (cfg0.win 4).flush t = true ∧ i ∈ ((cfg0.win 4).blk t).view.set := by
  have hi0 : (i 0).val < 256 := (i 0).isLt
  have hi1 : (i 1).val < 10 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 10 ≤ (i 1).val ∧ (i 1).val < win0_4.index t (1 : Fin 2) * 10 + 10
    omega

/-- The image as the kernel finds it: the argument image re-laid as 256 rows of 784 pixels. -/
theorem V_flat (c : Dev nD) :
    (V m c main_v0 : S256x784.Idx → EReal)
      = shapeCast S256x784 (m ((c : Thread nD τ).loc main_arg0)) shapeCasts_S256x28x28_S256x784 := by
  dsimp only [V, hostOps0]
  after_results
  rfl

/-- THE RESULT ARRAY after the run: the scores of the whole flattened image, the bundle arranged level by level. -/
theorem final (c : Dev nD) : (dats m 0 c).arrAt 4 cfg0.N
    = logitsK (shapeCast S256x784 (m ((c : Thread nD τ).loc main_arg0)) shapeCasts_S256x28x28_S256x784)
        (m ((c : Thread nD τ).loc main_arg1)) (m ((c : Thread nD τ).loc main_arg2)) (m ((c : Thread nD τ).loc main_arg3)) := by
  rw [← V_flat m c, ← V_main_arg1 m c, ← V_main_arg2 m c, ← V_main_arg3 m c]
  exact (dats m 0 c).arrAt_eq_of_cover 4 _ (fun t _ => flushed_eq m c t) cover

/-- The kernel's run, read: the result array at the scores of the flattened image, the arguments unchanged. -/
theorem run : θ_run defs (onTc (τ := τ) (main (F := Ideal))) ⟨m, fun _ => 0, ρ⟩ fun r => ∀ c : Dev nD,
      r.2.mem ((c : Thread nD τ).loc main_v1)
        = logitsK (shapeCast S256x784 (m ((c : Thread nD τ).loc main_arg0)) shapeCasts_S256x28x28_S256x784)
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

/-- The class scores of the image that memory `m` holds on device `c`, the bundle arranged position by position. -/
def scores (c : Dev nD) : S256x10.Idx → EReal :=
  logits (shapeCast S256x784 (m ((c : Thread nD τ).loc main_arg0)) shapeCasts_S256x28x28_S256x784)
    (m ((c : Thread nD τ).loc main_arg1)) (m ((c : Thread nD τ).loc main_arg2)) (m ((c : Thread nD τ).loc main_arg3))

/-- When the position table and the level table hold real numbers, the kernel's result is `scores`: the two
    arrangements of the bundle agree there. -/
theorem run_scores
    (hfin : ∀ c : Dev nD,
      (∀ i : S784x1000.Idx, ∃ r : ℝ, (m ((c : Thread nD τ).loc main_arg1) : S784x1000.Idx → EReal) i = (r : EReal))
      ∧ (∀ i : S10x1000.Idx, ∃ r : ℝ, (m ((c : Thread nD τ).loc main_arg2) : S10x1000.Idx → EReal) i = (r : EReal))) :
    θ_run defs (onTc (τ := τ) (main (F := Ideal))) ⟨m, fun _ => 0, ρ⟩ fun r => ∀ c : Dev nD,
      r.2.mem ((c : Thread nD τ).loc main_v1) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (logitsK_eq _ _ _ _ (hfin c).1 (hfin c).2), (h c).2⟩) (run m ρ)

end Cert.Encode.KernelArray

end
-- ==== Proof.Finite.lean ====
/-
  What the precondition says of the tables: every entry of the position table and of the level table is a real
  number.

  The precondition is the conjunction, over the four input arrays, of "every entry's absolute value is below +∞".
  An extended real whose absolute value `max x (-x)` is below `+∞` is neither infinity (at either infinity the
  maximum IS `+∞`), so it is a real.
-/
import proofs.«129407_j30992484008577_1_alg».proof.Pre_finite_inputs
import Idealize.ShloMosaic.PureOps.Ideal
import Idealize.ShloMosaic.Lib.ReduceAll
import Idealize.ShloMosaic.Lib.ValueIdx

noncomputable section

namespace Cert.Encode.Finite

open Cert.Pre_finite_inputs Idealize.ShloMosaic Idealize.ShloMosaic.ValueIdx

instance : Subsingleton S_.Idx := ⟨fun a b => funext fun d => d.elim0⟩

/-- An extended real with absolute value below `+∞` is a real number. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

variable [Facts]

/-- Under the precondition the position table and the level table hold real numbers. -/
theorem tables_real (a0 : FVec Ideal S256x28x28 .f32) (a1 : FVec Ideal S784x1000 .f32) (a2 a3 : FVec Ideal S10x1000 .f32)
    (h : fn (F := Ideal) a0 a1 a2 a3 = fun _ => 1#1) :
    (∀ i, ∃ r : ℝ, a1 i = r) ∧ (∀ i, ∃ r : ℝ, a2 i = r) := by
  have h0 := congrFun h ix0
  dsimp only [fn, fn_part1] at h0
  obtain ⟨h13, -⟩ := IntOp.andi_eq_one.1 h0
  obtain ⟨h8, h12⟩ := IntOp.andi_eq_one.1 h13
  obtain ⟨-, h7⟩ := IntOp.andi_eq_one.1 h8
  refine ⟨fun i => real_of_abs_lt _ ?_, fun i => real_of_abs_lt _ ?_⟩
  · exact Host.reduce_andi_all _ _ _ _ _ h7 i
  · exact Host.reduce_andi_all _ _ _ _ _ h12 i

end Cert.Encode.Finite

end
-- ==== Proof.lean ====
/-
  A level-quantized hyperdimensional encoder, kernel against reference, on extended reals.

  Each of the 256 images is flattened to 784 pixels. A pixel value `x` is quantized to a LEVEL in `0, …, 9`
  (`x · 9` rounded half to even, clamped into `[0, 9]`). Position `k` binds its entry `P[k, d]` of the position
  table with row `level` of the ten-row level table `V`; the BUNDLE is the sum over the 784 positions,
      s[b, d] = ∑ₖ P[k, d] · V[level x[b, k], d];
  it is quantized to `±1` (`1` where positive), and the score of class `c` is `∑_d sgn s[b, d] · W[c, d]`.

  The reference computes the bundle position by position, looking the table row up by the level. The kernel never
  looks a row up: for each level `l` it builds the 0/1 mask of the pixels at that level, multiplies the mask with
  the position table, scales by row `l` of the level table, and adds the ten results. The two agree because at
  every pixel exactly one mask is `1` — after distributing `V[l, d]` over a sum and exchanging two sums, laws of
  the real numbers that fail at infinities: this is where the precondition (every input finite) is used, for the
  position table and the level table only. Levels themselves need no precondition: clamping cuts the infinities
  off before the conversion to an integer.

  Two general facts sit in modules of their own: `LibOneHot` (a sum of one-hot masked sums is the looked-up sum;
  finite sums of reals read as extended reals) and `LibTakeRows` (rows of a table picked by an integer array, read
  at an index). `LevelBundle` holds the mathematics of this encoder with no program in sight; `RefScores` reads the reference's result as the
  scores; `KernelBody` reads what the kernel's body stores from its input blocks, `KernelArray` goes from the two
  row blocks to the whole result array; `Finite` reads the precondition. The kernel's idealization rewrote
  nothing, so the claim that it is the kernel's sanctioned idealization is trivially true.
-/
import proofs.«129407_j30992484008577_1_alg».proof.Defs
import proofs.«129407_j30992484008577_1_alg».proof.Proof.Gen.Kernel
import proofs.«129407_j30992484008577_1_alg».proof.Proof.Gen.Kernel.Skeleton
import proofs.«129407_j30992484008577_1_alg».proof.Proof.Gen.Kernel.Launch
import proofs.«129407_j30992484008577_1_alg».proof.Proof.Gen.Kernel.Points
import proofs.«129407_j30992484008577_1_alg».proof.Proof.Gen.Kernel.Frame
import proofs.«129407_j30992484008577_1_alg».proof.Proof.Gen.KernelIdeal
import proofs.«129407_j30992484008577_1_alg».proof.Proof.Gen.KernelIdeal.Skeleton
import proofs.«129407_j30992484008577_1_alg».proof.Proof.Gen.KernelIdeal.Launch
import proofs.«129407_j30992484008577_1_alg».proof.Proof.Gen.KernelIdeal.Points
import proofs.«129407_j30992484008577_1_alg».proof.Proof.Gen.KernelIdeal.Frame
import proofs.«129407_j30992484008577_1_alg».proof.Proof.Gen.ReferenceIdeal
import proofs.«129407_j30992484008577_1_alg».proof.Proof.Gen.Pre_finite_inputs
import proofs.«129407_j30992484008577_1_alg».proof.Proof.Gen.KernelIdeal.Value
import proofs.«129407_j30992484008577_1_alg».proof.Proof.Gen.ReferenceIdeal.Run
import proofs.«129407_j30992484008577_1_alg».proof.Proof.Gen.ReferenceIdeal.Read
import proofs.«129407_j30992484008577_1_alg».proof.Proof.LevelBundle
import proofs.«129407_j30992484008577_1_alg».proof.Proof.RefScores
import proofs.«129407_j30992484008577_1_alg».proof.Proof.KernelBody
import proofs.«129407_j30992484008577_1_alg».proof.Proof.KernelArray
import proofs.«129407_j30992484008577_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read on extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was read on extended reals. -/
theorem preserves : Cert.preserves_Kernel_KernelIdeal := trivial

/-- Both programs end with the class scores of the image: the kernel by the level-by-level arrangement of the bundle,
    which on finite tables is the position-by-position one, the reference by the latter directly. -/
theorem algebraic : Cert.algebraic_KernelIdeal_ReferenceIdeal := by
  intro m ρ m' ρ' hpre hagree
  have hfin := fun c => Cert.Encode.Finite.tables_real _ _ _ _ (hpre c)
  refine ⟨fun c => Cert.Encode.KernelArray.scores m c, Cert.Encode.KernelArray.run_scores m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Encode.Ref.ref_scores, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
